-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x16 : Shape := ⟨2, ![500000, 16]⟩
abbrev S272 : Shape := ⟨1, ![272]⟩
abbrev S272x128 : Shape := ⟨2, ![272, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S272 : S_.BroadcastsInDim S272 (![] : Fin 0 → Fin S272.rank)
  reducesTo_S272_S_d0 : S272.ReducesTo [0] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg7 : FVec F S272 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_cst_20 : FVec F S_ .f32 := constant S_ .f32 0x00000000#32
  let main_v54 : FVec F S272 .f32 := broadcastInDim S272 ![] bcast_S_S272 main_cst_20
  let main_v55 : IVec S272 1 := cmpf .oge main_arg7 main_v54
  let main_c_21 : IVec S_ 1 := constantI S_ 1 1#1
  let main_v56 : IVec S_ 1 := (fun x v => Host.reduce IntOp.andi x v reducesTo_S272_S_d0 h_S_) main_v55 main_c_21
  let main_v57 : IVec S_ 1 := andi main_v53 main_v56
  main_v57

def fn_part2 {F : FTy → Type} [FloatOps F] (main_arg7 : FVec F S272 .f32) (main_arg8 : FVec F S272x128 .f32) (main_arg9 : FVec F S128 .f32) (main_arg10 : FVec F S128x1 .f32) (main_arg11 : FVec F S1 .f32) (main_v33 : IVec S_ 1) : IVec S_ 1 :=
  let main_v34 : FVec F S272x128 .f32 := Host.absf main_arg8
  let main_cst_12 : FVec F S_ .f32 := constant S_ .f32 0x7F800000#32
  let main_v35 : FVec F S272x128 .f32 := broadcastInDim S272x128 ![] bcast_S_S272x128 main_cst_12
  let main_v36 : IVec S272x128 1 := cmpf .olt main_v34 main_v35
  let main_c_13 : IVec S_ 1 := constantI S_ 1 1#1
  let main_v37 : IVec S_ 1 := (fun x v => Host.reduce IntOp.andi x v reducesTo_S272x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg7 main_v48 main_v49 main_v50

def fn_part1 {F : FTy → Type} [FloatOps F] (main_arg5 : FVec F S272 .f32) (main_arg6 : FVec F S272 .f32) (main_arg7 : FVec F S272 .f32) (main_arg8 : FVec F S272x128 .f32) (main_arg9 : FVec F S128 .f32) (main_arg10 : FVec F S128x1 .f32) (main_arg11 : FVec F S1 .f32) (main_v13 : IVec S_ 1) (main_v16 : IVec S272 1) : IVec S_ 1 :=
  let main_c_5 : IVec S_ 1 := constantI S_ 1 1#1
  let main_v17 : IVec S_ 1 := (fun x v => Host.reduce IntOp.andi x v reducesTo_S272_S_d0 h_S_) main_v16 main_c_5
  let main_v18 : IVec S_ 1 := andi main_v13 main_v17
  let main_v19 : FVec F S272 .f32 := Host.absf main_arg5
  let main_cst_6 : FVec F S_ .f32 := constant S_ .f32 0x7F800000#32
  let main_v20 : FVec F S272 .f32 := broadcastInDim S272 ![] bcast_S_S272 main_cst_6
  let main_v21 : IVec S272 1 := cmpf .olt main_v19 main_v20
  let main_c_7 : IVec S_ 1 := constantI S_ 1 1#1
  let main_v22 : IVec S_ 1 := (fun x v => Host.reduce IntOp.andi x v reducesTo_S272_S_d0 h_S_) main_v21 main_c_7
  let main_v23 : IVec S_ 1 := andi main_v18 main_v22
  let main_v24 : FVec F S272 .f32 := Host.absf main_arg6
  let main_cst_8 : FVec F S_ .f32 := constant S_ .f32 0x7F800000#32
  let main_v25 : FVec F S272 .f32 := broadcastInDim S272 ![] bcast_S_S272 main_cst_8
  let main_v26 : IVec S272 1 := cmpf .olt main_v24 main_v25
  let main_c_9 : IVec S_ 1 := constantI S_ 1 1#1
  let main_v27 : IVec S_ 1 := (fun x v => Host.reduce IntOp.andi x v reducesTo_S272_S_d0 h_S_) main_v26 main_c_9
  let main_v28 : IVec S_ 1 := andi main_v23 main_v27
  let main_v29 : FVec F S272 .f32 := Host.absf main_arg7
  let main_cst_10 : FVec F S_ .f32 := constant S_ .f32 0x7F800000#32
  let main_v30 : FVec F S272 .f32 := broadcastInDim S272 ![] bcast_S_S272 main_cst_10
  let main_v31 : IVec S272 1 := cmpf .olt main_v29 main_v30
  let main_c_11 : IVec S_ 1 := constantI S_ 1 1#1
  let main_v32 : IVec S_ 1 := (fun x v => Host.reduce IntOp.andi x v reducesTo_S272_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S100000x128 .f32) (main_arg2 : IVec S2x500000 32) (main_arg3 : FVec F S500000x16 .f32) (main_arg4 : FVec F S272 .f32) (main_arg5 : FVec F S272 .f32) (main_arg6 : FVec F S272 .f32) (main_arg7 : FVec F S272 .f32) (main_arg8 : FVec F S272x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S500000x16 .f32 := Host.absf main_arg3
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S272 .f32 := Host.absf main_arg4
  let main_cst_4 : FVec F S_ .f32 := constant S_ .f32 0x7F800000#32
  let main_v15 : FVec F S272 .f32 := broadcastInDim S272 ![] bcast_S_S272 main_cst_4
  let main_v16 : IVec S272 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x500000 : Shape := ⟨2, ![2, 500000]⟩
abbrev S500000x16 : Shape := ⟨2, ![500000, 16]⟩
abbrev S272 : Shape := ⟨1, ![272]⟩
abbrev S272x128 : Shape := ⟨2, ![272, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S501760x128 : Shape := ⟨2, ![501760, 128]⟩
abbrev S501760x16 : Shape := ⟨2, ![501760, 16]⟩
abbrev S1x272 : Shape := ⟨2, ![1, 272]⟩
abbrev S1x128 : Shape := ⟨2, ![1, 128]⟩
abbrev S1x1 : Shape := ⟨2, ![1, 1]⟩
abbrev S2048x128 : Shape := ⟨2, ![2048, 128]⟩
abbrev S2048x16 : Shape := ⟨2, ![2048, 16]⟩
abbrev S2048x272 : Shape := ⟨2, ![2048, 272]⟩
abbrev S2048x1 : Shape := ⟨2, ![2048, 1]⟩

abbrev nBuf : Space → Nat
  | .hbm => 62
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S500000x16, .f32⟩
  | .hbm, ⟨4, _⟩ => ⟨S272, .f32⟩
  | .hbm, ⟨5, _⟩ => ⟨S272, .f32⟩
  | .hbm, ⟨6, _⟩ => ⟨S272, .f32⟩
  | .hbm, ⟨7, _⟩ => ⟨S272, .f32⟩
  | .hbm, ⟨8, _⟩ => ⟨S272x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S_, .i32⟩
  | .hbm, ⟨35, _⟩ => ⟨S_, .f32⟩
  | .hbm, ⟨36, _⟩ => ⟨S501760x128, .f32⟩
  | .hbm, ⟨37, _⟩ => ⟨S_, .i32⟩
  | .hbm, ⟨38, _⟩ => ⟨S_, .f32⟩
  | .hbm, ⟨39, _⟩ => ⟨S501760x128, .f32⟩
  | .hbm, ⟨40, _⟩ => ⟨S_, .i32⟩
  | .hbm, ⟨41, _⟩ => ⟨S_, .f32⟩
  | .hbm, ⟨42, _⟩ => ⟨S501760x16, .f32⟩
  | .hbm, ⟨43, _⟩ => ⟨S_, .f32⟩
  | .hbm, ⟨44, _⟩ => ⟨S272, .f32⟩
  | .hbm, ⟨45, _⟩ => ⟨S272, .f32⟩
  | .hbm, ⟨46, _⟩ => ⟨S272, .f32⟩
  | .hbm, ⟨47, _⟩ => ⟨S272, .f32⟩
  | .hbm, ⟨48, _⟩ => ⟨S272, .f32⟩
  | .hbm, ⟨49, _⟩ => ⟨S272, .f32⟩
  | .hbm, ⟨50, _⟩ => ⟨S1x272, .f32⟩
  | .hbm, ⟨51, _⟩ => ⟨S1x272, .f32⟩
  | .hbm, ⟨52, _⟩ => ⟨S272x128, .bf16⟩
  | .hbm, ⟨53, _⟩ => ⟨S1x128, .f32⟩
  | .hbm, ⟨54, _⟩ => ⟨S128x1, .bf16⟩
  | .hbm, ⟨55, _⟩ => ⟨S1x1, .f32⟩
  | .hbm, ⟨56, _⟩ => ⟨S501760x128, .f32⟩
  | .hbm, ⟨57, _⟩ => ⟨S500000x128, .f32⟩
  | .hbm, ⟨58, _⟩ => ⟨S_, .f32⟩
  | .hbm, ⟨59, _⟩ => ⟨S100000x128, .f32⟩
  | .hbm, ⟨60, _⟩ => ⟨S500000x1, .i32⟩
  | .hbm, ⟨61, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x16, .f32⟩
  | .local _ .vmem, ⟨5, _⟩ => ⟨S2048x16, .f32⟩
  | .local _ .vmem, ⟨6, _⟩ => ⟨S1x272, .f32⟩
  | .local _ .vmem, ⟨7, _⟩ => ⟨S1x272, .f32⟩
  | .local _ .vmem, ⟨8, _⟩ => ⟨S272x128, .bf16⟩
  | .local _ .vmem, ⟨9, _⟩ => ⟨S1x128, .f32⟩
  | .local _ .vmem, ⟨10, _⟩ => ⟨S128x1, .bf16⟩
  | .local _ .vmem, ⟨11, _⟩ => ⟨S1x1, .f32⟩
  | .local _ .vmem, ⟨12, _⟩ => ⟨S2048x128, .f32⟩
  | .local _ .vmem, ⟨13, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_call0_v0 : Ref sig .tc := ⟨.hbm, 35, rfl⟩
abbrev main_v18 : Ref sig .tc := ⟨.hbm, 36, rfl⟩
abbrev main_c_4 : Ref sig .tc := ⟨.hbm, 37, rfl⟩
abbrev main_call1_v0 : Ref sig .tc := ⟨.hbm, 38, rfl⟩
abbrev main_v19 : Ref sig .tc := ⟨.hbm, 39, rfl⟩
abbrev main_c_5 : Ref sig .tc := ⟨.hbm, 40, rfl⟩
abbrev main_call2_v0 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x272 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x272 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S272x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  pads_S500000x128_S501760x128_017600_000 : S500000x128.Pads (![0, 0] : Fin 2 → Nat) ![1760, 0] ![0, 0] S501760x128
  h_S_ : 0 < S_.numel
  pads_S500000x16_S501760x16_017600_000 : S500000x16.Pads (![0, 0] : Fin 2 → Nat) ![1760, 0] ![0, 0] S501760x16
  bcast_S_S272 : S_.BroadcastsInDim S272 (![] : Fin 0 → Fin S272.rank)
  shapeCasts_S272_S1x272 : S272.ShapeCasts S1x272
  bitsLt_bf16_f32 : FTy.bits .bf16 < FTy.bits .f32
  shapeCasts_S128_S1x128 : S128.ShapeCasts S1x128
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  concatenates_S2048x128_S2048x128_S2048x16_S2048x272_d1 : Shape.Concatenates [S2048x128, S2048x128, S2048x16] S2048x272 1
  inb_S1x272_S1x272_0_0 : ∀ a, (![0, 0] : Fin 2 → Nat) a + S1x272.size a ≤ S1x272.size a
  h_S1x272 : 0 < S1x272.numel
  shapeCasts_S1x272_S1x272 : S1x272.ShapeCasts S1x272
  broadcasts_S1x272_S2048x272 : S1x272.Broadcasts S2048x272
  inb_S272x128_S272x128_0_0 : ∀ a, (![0, 0] : Fin 2 → Nat) a + S272x128.size a ≤ S272x128.size a
  h_S272x128 : 0 < S272x128.numel
  shapeCasts_S272x128_S272x128 : S272x128.ShapeCasts S272x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  broadcasts_S2048x1_S2048x128 : S2048x1.Broadcasts S2048x128
  slices_S501760x128_S500000x128_0_0 : S501760x128.Slices ![0, 0] S500000x128
  bcast_S_S100000x128 : S_.BroadcastsInDim S100000x128 (![] : Fin 0 → Fin S100000x128.rank)
  gather_S100000x128_S500000x1_S500000x128_1_0_n_n_0_1_1128_wf : GatherDims.WF S100000x128 S500000x1 S500000x128 [1] [0] [] [0] [] 1 ![1, 128]
  dot_S2048x272_S272x128_S2048x128_1_0_0_1_n_n_wf : DotDims.WF S2048x272 S272x128 S2048x128 [1] [0] [0] [1] [] []
  dot_S2048x128_S128x1_S2048x1_1_0_0_1_n_n_wf : DotDims.WF S2048x128 S128x1 S2048x1 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S501760x128.size a
  hwx0_0 : ∀ i : grid0.Coords, EltTy.bits .f32 = 32 ∨ (Rect.block (s := S501760x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S501760x128.size a
  hwx0_1 : ∀ i : grid0.Coords, EltTy.bits .f32 = 32 ∨ (Rect.block (s := S501760x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S501760x16.size a
  hwx0_2 : ∀ i : grid0.Coords, EltTy.bits .f32 = 32 ∨ (Rect.block (s := S501760x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x272.size a ≤ S1x272.size a
  hwx0_3 : ∀ i : grid0.Coords, EltTy.bits .f32 = 32 ∨ (Rect.block (s := S1x272) S1x272.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x272.size a ≤ S1x272.size a
  hwx0_4 : ∀ i : grid0.Coords, EltTy.bits .f32 = 32 ∨ (Rect.block (s := S1x272) S1x272.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S272x128.size a ≤ S272x128.size a
  hwx0_5 : ∀ i : grid0.Coords, EltTy.bits .bf16 = 32 ∨ (Rect.block (s := S272x128) S272x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S501760x128.size a
  hwx0_9 : ∀ i : grid0.Coords, EltTy.bits .f32 = 32 ∨ (Rect.block (s := S501760x128) S2048x128.size (cc0_transform_9 i) (hinb0_9 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S2048x272_S272x128_S2048x128_1_0_0_1_n_n : DotDims S2048x272 S272x128 S2048x128 where
  lhsContracting := [1]
  rhsContracting := [0]
  lhsNonContracting := [0]
  rhsNonContracting := [1]
  lhsBatch := []
  rhsBatch := []
  wf := dot_S2048x272_S272x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v18) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x272.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x272.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S272x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x16 : Shape := ⟨2, ![500000, 16]⟩
abbrev S272 : Shape := ⟨1, ![272]⟩
abbrev S272x128 : Shape := ⟨2, ![272, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x272 : Shape := ⟨2, ![500000, 272]⟩
abbrev S1x272 : Shape := ⟨2, ![1, 272]⟩
abbrev S1x128 : Shape := ⟨2, ![1, 128]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S500000x16, .f32⟩
  | .hbm, ⟨4, _⟩ => ⟨S272, .f32⟩
  | .hbm, ⟨5, _⟩ => ⟨S272, .f32⟩
  | .hbm, ⟨6, _⟩ => ⟨S272, .f32⟩
  | .hbm, ⟨7, _⟩ => ⟨S272, .f32⟩
  | .hbm, ⟨8, _⟩ => ⟨S272x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S500000x272, .f32⟩
  | .hbm, ⟨35, _⟩ => ⟨S1x272, .f32⟩
  | .hbm, ⟨36, _⟩ => ⟨S500000x272, .f32⟩
  | .hbm, ⟨37, _⟩ => ⟨S500000x272, .f32⟩
  | .hbm, ⟨38, _⟩ => ⟨S_, .f32⟩
  | .hbm, ⟨39, _⟩ => ⟨S272, .f32⟩
  | .hbm, ⟨40, _⟩ => ⟨S272, .f32⟩
  | .hbm, ⟨41, _⟩ => ⟨S272, .f32⟩
  | .hbm, ⟨42, _⟩ => ⟨S272, .f32⟩
  | .hbm, ⟨43, _⟩ => ⟨S1x272, .f32⟩
  | .hbm, ⟨44, _⟩ => ⟨S500000x272, .f32⟩
  | .hbm, ⟨45, _⟩ => ⟨S500000x272, .f32⟩
  | .hbm, ⟨46, _⟩ => ⟨S1x272, .f32⟩
  | .hbm, ⟨47, _⟩ => ⟨S500000x272, .f32⟩
  | .hbm, ⟨48, _⟩ => ⟨S500000x272, .f32⟩
  | .hbm, ⟨49, _⟩ => ⟨S500000x128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S_, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S500000x128, .f32⟩
  | .hbm, ⟨60, _⟩ => ⟨S500000x128, .f32⟩
  | .hbm, ⟨61, _⟩ => ⟨S500000x128, .f32⟩
  | .hbm, ⟨62, _⟩ => ⟨S500000x1, .f32⟩
  | .hbm, ⟨63, _⟩ => ⟨S1x1, .f32⟩
  | .hbm, ⟨64, _⟩ => ⟨S500000x1, .f32⟩
  | .hbm, ⟨65, _⟩ => ⟨S500000x1, .f32⟩
  | .hbm, ⟨66, _⟩ => ⟨S500000x1, .f32⟩
  | .hbm, ⟨67, _⟩ => ⟨S500000x1, .f32⟩
  | .hbm, ⟨68, _⟩ => ⟨S_, .f32⟩
  | .hbm, ⟨69, _⟩ => ⟨S500000x1, .f32⟩
  | .hbm, ⟨70, _⟩ => ⟨S500000x1, .f32⟩
  | .hbm, ⟨71, _⟩ => ⟨S_, .f32⟩
  | .hbm, ⟨72, _⟩ => ⟨S500000x1, .f32⟩
  | .hbm, ⟨73, _⟩ => ⟨S500000x1, .f32⟩
  | .hbm, ⟨74, _⟩ => ⟨S500000x128, .f32⟩
  | .hbm, ⟨75, _⟩ => ⟨S500000x128, .f32⟩
  | .hbm, ⟨76, _⟩ => ⟨S_, .f32⟩
  | .hbm, ⟨77, _⟩ => ⟨S100000x128, .f32⟩
  | .hbm, ⟨78, _⟩ => ⟨S500000x1, .i32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x16_S500000x272_d1 : Shape.Concatenates [S500000x128, S500000x128, S500000x16] S500000x272 1
  bcast_S272_S1x272_1 : S272.BroadcastsInDim S1x272 (![1] : Fin 1 → Fin S1x272.rank)
  bcast_S1x272_S500000x272_0_1 : S1x272.BroadcastsInDim S500000x272 (![0, 1] : Fin 2 → Fin S500000x272.rank)
  bcast_S_S272 : S_.BroadcastsInDim S272 (![] : Fin 0 → Fin S272.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  gather_S100000x128_S500000x1_S500000x128_1_0_n_n_0_1_1128_wf : GatherDims.WF S100000x128 S500000x1 S500000x128 [1] [0] [] [0] [] 1 ![1, 128]
  dot_S500000x272_S272x128_S500000x128_1_0_0_1_n_n_wf : DotDims.WF S500000x272 S272x128 S500000x128 [1] [0] [0] [1] [] []
  dot_S500000x128_S128x1_S500000x1_1_0_0_1_n_n_wf : DotDims.WF S500000x128 S128x1 S500000x1 [1] [0] [0] [1] [] []
  scatter_S100000x128_S500000x1_S500000x128_1_0_0_1_wf : ScatterDims.WF S100000x128 S500000x1 S500000x128 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x272_S272x128_S500000x128_1_0_0_1_n_n : DotDims S500000x272 S272x128 S500000x128 where
  lhsContracting := [1]
  rhsContracting := [0]
  lhsNonContracting := [0]
  rhsNonContracting := [1]
  lhsBatch := []
  rhsBatch := []
  wf := dot_S500000x272_S272x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.EdgeSpec.lean ====
/-
  THE PER-EDGE COMPUTATION, ON THE EXTENDED REALS.

  One edge's feature row `st : Fin 272 → EReal` (sender features, receiver features, edge attributes, already
  normalised) goes through a dense layer and the function `h ↦ h · σ(h)` (σ the logistic function), which gives the
  edge's message; a second dense layer with one output and σ give the edge's gate; the result row is the message
  scaled by the gate. Two spellings of the normalisation step are joined here: with the per-column factor `c`
  real, `s · c + (b - m · c)` and `(s - m) · c + b` are one extended real for EVERY `s`, infinite or not. The factor is
  `γ / √(v + ε)`, real as soon as the variance `v` is a non-negative real and `ε` a positive one.
-/
import Idealize.ShloMosaic.PureOps.Ideal
import Idealize.ShloMosaic.PureOps.Ideal.Laws

noncomputable section

open scoped BigOperators

namespace Cert.EdgeSpec

open Idealize.ShloMosaic

/-- The message of one edge at output column `c`: `h · σ(h)` for `h = ∑ k, st k · W1 k c + b1 c`. -/
def msg (st : Fin 272 → EReal) (W1 : Fin 272 → Fin 128 → EReal) (b1 : Fin 128 → EReal) (c : Fin 128) : EReal :=
  (∑ k : Fin 272, st k * W1 k c + b1 c) * Ideal.logistic (∑ k : Fin 272, st k * W1 k c + b1 c)

/-- The gated message of one edge at column `c`: the message times `σ(∑ c', msg c' · W2 c' + b2)`. -/
def rowOut (st : Fin 272 → EReal) (W1 : Fin 272 → Fin 128 → EReal) (b1 : Fin 128 → EReal) (W2 : Fin 128 → EReal)
    (b2 : EReal) (c : Fin 128) : EReal :=
  msg st W1 b1 c * Ideal.logistic (∑ c' : Fin 128, msg st W1 b1 c' * W2 c' + b2)

/-- Equal inputs, entry by entry, give equal gated messages. -/
theorem rowOut_congr {st st' : Fin 272 → EReal} {W1 W1' : Fin 272 → Fin 128 → EReal} {b1 b1' : Fin 128 → EReal}
    {W2 W2' : Fin 128 → EReal} {b2 b2' : EReal} {c c' : Fin 128} (h1 : ∀ k, st k = st' k) (h2 : ∀ k q, W1 k q = W1' k q)
    (h3 : ∀ q, b1 q = b1' q) (h4 : ∀ q, W2 q = W2' q) (h5 : b2 = b2') (h6 : c = c') :
    rowOut st W1 b1 W2 b2 c = rowOut st' W1' b1' W2' b2' c' := by
  obtain rfl : st = st' := funext h1
  obtain rfl : W1 = W1' := funext fun k => funext (h2 k)
  obtain rfl : b1 = b1' := funext h3
  obtain rfl : W2 = W2' := funext h4
  subst h5; subst h6; rfl

/-- The f32 word of `1.0` is the real `1`. -/
theorem ofBits_one : Ideal.ofBits .f32 0x3F800000#32 = 1 := by
  simp [Ideal.ofBits, Ideal.ieee]
  rw [← EReal.coe_mul, ← EReal.coe_one]
  congr 1
  norm_num

/-- The logistic function written out with the word of `1.0`: `1 / (1 + e^(-x))`. -/
theorem logistic_spelled (x : EReal) :
    Ideal.div (Ideal.ofBits .f32 0x3F800000#32) (Ideal.ofBits .f32 0x3F800000#32 + Ideal.exp (-x)) = Ideal.logistic x := by
  rw [ofBits_one]; rfl

/-- The two spellings of the normalisation agree at every extended real `s` when mean, factor and offset are real. -/
theorem bn_eq (s : EReal) (m c b : ℝ) :
    s * (c : EReal) + ((b : EReal) - (m : EReal) * (c : EReal)) = (s - (m : EReal)) * (c : EReal) + (b : EReal) := by
  induction s using EReal.rec with
  | coe s =>
    rw [← EReal.coe_mul, ← EReal.coe_mul, ← EReal.coe_sub, ← EReal.coe_sub, ← EReal.coe_add, ← EReal.coe_mul, ← EReal.coe_add]
    congr 1; ring
  | top =>
    have h1 : (⊤ : EReal) - (m : EReal) = ⊤ := EReal.top_sub_coe m
    rw [h1, ← EReal.coe_mul, ← EReal.coe_sub]
    rcases lt_trichotomy c 0 with hc | hc | hc
    · rw [EReal.top_mul_coe_of_neg hc, EReal.bot_add, EReal.bot_add]
    · subst hc; simp
    · rw [EReal.top_mul_coe_of_pos hc, EReal.top_add_coe, EReal.top_add_coe]
  | bot =>
    have h1 : (⊥ : EReal) - (m : EReal) = ⊥ := EReal.bot_sub _
    rw [h1, ← EReal.coe_mul, ← EReal.coe_sub]
    rcases lt_trichotomy c 0 with hc | hc | hc
    · rw [EReal.bot_mul_coe_of_neg hc, EReal.top_add_coe, EReal.top_add_coe]
    · subst hc; simp
    · rw [EReal.bot_mul_coe_of_pos hc, EReal.bot_add, EReal.bot_add]

/-- The f32 word of the variance offset `1e-5` is a positive real. -/
theorem eps_pos : ∃ e : ℝ, 0 < e ∧ Ideal.ofBits .f32 0x3727C5AC#32 = (e : EReal) := by
  refine ⟨_, ?_, by simp [Ideal.ofBits, Ideal.ieee]; rfl⟩
  positivity

/-- `1 / √(v + e)` is a real when `v ≥ 0` and `e > 0` are. -/
theorem rsqrt_real {v e : ℝ} (hv : 0 ≤ v) (he : 0 < e) : ∃ r : ℝ, Ideal.rsqrt ((v : EReal) + (e : EReal)) = (r : EReal) := by
  have h : 0 < v + e := by linarith
  rw [← EReal.coe_add, Ideal.rsqrt_coe, if_neg (not_lt.mpr h.le), if_neg h.ne']
  exact ⟨_, rfl⟩

end Cert.EdgeSpec

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibJoinCols.lean ====
/-
  THREE MATRICES JOINED SIDE BY SIDE, READ AT AN INDEX.

  Arrays `[a, n1]`, `[a, n2]`, `[a, n3]` concatenated along their columns give an `[a, n]` array, `n = n1 + n2 + n3`,
  whose entry at `(p, k)` is the first array's `(p, k)` for `k < n1`, the second's `(p, k - n1)` for
  `n1 ≤ k < n1 + n2`, and the third's `(p, k - n1 - n2)` beyond. Generic in the extents and the element type.
-/
import Idealize.ShloMosaic.Lib.ValueIdx
import Idealize.ShloMosaic.Lib.Pipeline.Value

noncomputable section

namespace Cert.JoinCols

open Idealize.ShloMosaic Idealize.ShloMosaic.ValueIdx

/-- Row `p` of the three arrays laid side by side, at column `k`. -/
def joinCols {α : Type} {a n1 n2 n3 n : ℕ} (hn : n = n1 + n2 + n3)
    (x1 : (⟨2, ![a, n1]⟩ : Shape).Idx → α) (x2 : (⟨2, ![a, n2]⟩ : Shape).Idx → α) (x3 : (⟨2, ![a, n3]⟩ : Shape).Idx → α)
    (p : Fin a) (k : Fin n) : α :=
  if h1 : k.val < n1 then x1 (ix2 p ⟨k.val, h1⟩)
  else if h2 : k.val < n1 + n2 then x2 (ix2 p ⟨k.val - n1, by omega⟩)
  else x3 (ix2 p ⟨k.val - (n1 + n2), by have := k.isLt; omega⟩)

/-- Rows that agree entry by entry give the same joined row. -/
theorem joinCols_congr {α : Type} {a a' n1 n2 n3 n : ℕ} (hn : n = n1 + n2 + n3)
    (x1 : (⟨2, ![a, n1]⟩ : Shape).Idx → α) (x2 : (⟨2, ![a, n2]⟩ : Shape).Idx → α) (x3 : (⟨2, ![a, n3]⟩ : Shape).Idx → α)
    (y1 : (⟨2, ![a', n1]⟩ : Shape).Idx → α) (y2 : (⟨2, ![a', n2]⟩ : Shape).Idx → α) (y3 : (⟨2, ![a', n3]⟩ : Shape).Idx → α)
    (p : Fin a) (q : Fin a')
    (e1 : ∀ j : Fin n1, x1 (ix2 p j) = y1 (ix2 q j)) (e2 : ∀ j : Fin n2, x2 (ix2 p j) = y2 (ix2 q j))
    (e3 : ∀ j : Fin n3, x3 (ix2 p j) = y3 (ix2 q j)) (k : Fin n) :
    joinCols hn x1 x2 x3 p k = joinCols hn y1 y2 y3 q k := by
  unfold joinCols
  split
  · exact e1 _
  · split
    · exact e2 _
    · exact e3 _

/-- The concatenation along the columns reads the joined row. -/
theorem concatenate3_cols_apply {α : Type} {a n1 n2 n3 n : ℕ} (hn : n = n1 + n2 + n3)
    (x1 : (⟨2, ![a, n1]⟩ : Shape).Idx → α) (x2 : (⟨2, ![a, n2]⟩ : Shape).Idx → α) (x3 : (⟨2, ![a, n3]⟩ : Shape).Idx → α)
    (h : Shape.Concatenates [(⟨2, ![a, n1]⟩ : Shape), ⟨2, ![a, n2]⟩, ⟨2, ![a, n3]⟩] ⟨2, ![a, n]⟩ 1)
    (p : Fin a) (k : Fin n) :
    concatenate ⟨2, ![a, n]⟩ 1 [⟨⟨2, ![a, n1]⟩, x1⟩, ⟨⟨2, ![a, n2]⟩, x2⟩, ⟨⟨2, ![a, n3]⟩, x3⟩] h (ix2 p k)
      = joinCols hn x1 x2 x3 p k := by
  unfold joinCols
  split
  · rename_i h1
    exact concatenate_apply_piece (t := ⟨2, ![a, n]⟩) 1 [⟨⟨2, ![a, n1]⟩, x1⟩, ⟨⟨2, ![a, n2]⟩, x2⟩, ⟨⟨2, ![a, n3]⟩, x3⟩] h (ix2 p k) 0
      (by show 0 < 3; omega) _ x1 rfl rfl 0 rfl (ix2 p ⟨k.val, h1⟩)
      (fun b hb => match b, hb with
        | ⟨0, _⟩, _ => rfl
        | ⟨1, _⟩, hb => absurd rfl hb)
      (by show 0 + k.val = k.val; omega)
  · rename_i h1
    split
    · rename_i h2
      exact concatenate_apply_piece (t := ⟨2, ![a, n]⟩) 1 [⟨⟨2, ![a, n1]⟩, x1⟩, ⟨⟨2, ![a, n2]⟩, x2⟩, ⟨⟨2, ![a, n3]⟩, x3⟩] h (ix2 p k) 1
        (by show 1 < 3; omega) _ x2 rfl rfl n1 (by simp) (ix2 p ⟨k.val - n1, by omega⟩)
        (fun b hb => match b, hb with
          | ⟨0, _⟩, _ => rfl
          | ⟨1, _⟩, hb => absurd rfl hb)
        (by show n1 + (k.val - n1) = k.val; omega)
    · rename_i h2
      exact concatenate_apply_piece (t := ⟨2, ![a, n]⟩) 1 [⟨⟨2, ![a, n1]⟩, x1⟩, ⟨⟨2, ![a, n2]⟩, x2⟩, ⟨⟨2, ![a, n3]⟩, x3⟩] h (ix2 p k) 2
        (by show 2 < 3; omega) _ x3 rfl rfl (n1 + n2) (by simp)
        (ix2 p ⟨k.val - (n1 + n2), by have := k.isLt; omega⟩)
        (fun b hb => match b, hb with
          | ⟨0, _⟩, _ => rfl
          | ⟨1, _⟩, hb => absurd rfl hb)
        (by show n1 + n2 + (k.val - (n1 + n2)) = k.val; omega)

end Cert.JoinCols

end
-- ==== Proof.Payload.lean ====
/-
  THE BODY OF THE KERNEL AT ONE ENTRY OF ITS BLOCK.

  A block of 2048 edges: the three feature blocks are joined side by side, every column is scaled and shifted, and
  the row goes through the two dense layers with the logistic function in between. Entry `(p, c)` of the block the
  body stores is the gated message of row `p` at column `c` (`Cert.EdgeSpec.rowOut`): it depends on row `p` of the
  three feature blocks and on the whole of the small operands, and on nothing else.
-/
import proofs.«181398_j60696477827106_2_alg».proof.Proof.Gen.KernelIdeal.Skeleton
import proofs.«181398_j60696477827106_2_alg».proof.Proof.EdgeSpec
import proofs.«181398_j60696477827106_2_alg».proof.Proof.LibMatOps
import proofs.«181398_j60696477827106_2_alg».proof.Proof.LibJoinCols
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.EdgeSpec Cert.MatOps Cert.JoinCols

/-- The logistic function of a vector, entry by entry. -/
theorem logistic_apply {s : Shape} {φ : FTy} (v : FVec Ideal s φ) (i : s.Idx) : logistic v i = Ideal.logistic (v i) := rfl

variable [Cert.KernelIdeal.Facts]

theorem dot1_eq : dot_S2048x272_S272x128_S2048x128_1_0_0_1_n_n
    = plainDot 2048 272 128 Facts₀.dot_S2048x272_S272x128_S2048x128_1_0_0_1_n_n_wf := rfl

theorem dot2_eq : dot_S2048x128_S128x1_S2048x1_1_0_0_1_n_n
    = plainDot 2048 128 1 Facts₀.dot_S2048x128_S128x1_S2048x1_1_0_0_1_n_n_wf := rfl

/-- Entry `(p, c)` of the stored block. -/
theorem pay_apply (x0 x1 : Vec Ideal S2048x128 .f32) (x2 : Vec Ideal S2048x16 .f32) (x3 x4 : Vec Ideal S1x272 .f32)
    (x5 : Vec Ideal S272x128 .bf16) (x6 : Vec Ideal S1x128 .f32) (x7 : Vec Ideal S128x1 .bf16) (x8 : Vec Ideal S1x1 .f32)
    (p : Fin 2048) (c : Fin 128) :
    k0_pay1 (F := Ideal) x0 x1 x2 x3 x4 x5 x6 x7 x8 (ix2 p c)
      = rowOut (fun k => joinCols (by norm_num : 272 = 128 + 128 + 16) x0 x1 x2 p k * x3 (ix2 (0 : Fin 1) k) + x4 (ix2 (0 : Fin 1) k))
          (fun k c' => x5 (ix2 k c')) (fun c' => x6 (ix2 (0 : Fin 1) c')) (fun c' => x7 (ix2 c' (0 : Fin 1)))
          (x8 (ix2 (0 : Fin 1) (0 : Fin 1))) c := by
  unfold k0_pay1
  simp only [shapeCast_self, dot1_eq, dot2_eq]
  simp only [mulf_apply, addf_apply, logistic_apply, broadcastTo_a1_ab_apply, broadcastTo_1b_ab_apply, matmul_plain_apply,
    truncf_apply, concatenate3_cols_apply (by norm_num : 272 = 128 + 128 + 16)]
  simp only [shapeCast_self]
  rfl

/-- The same at any index of the block: row `y 0`, column `y 1`. -/
theorem pay_at (x0 x1 : Vec Ideal S2048x128 .f32) (x2 : Vec Ideal S2048x16 .f32) (x3 x4 : Vec Ideal S1x272 .f32)
    (x5 : Vec Ideal S272x128 .bf16) (x6 : Vec Ideal S1x128 .f32) (x7 : Vec Ideal S128x1 .bf16) (x8 : Vec Ideal S1x1 .f32)
    (y : S2048x128.Idx) :
    k0_pay1 (F := Ideal) x0 x1 x2 x3 x4 x5 x6 x7 x8 y
      = rowOut (fun k => joinCols (by norm_num : 272 = 128 + 128 + 16) x0 x1 x2 (y 0) k * x3 (ix2 (0 : Fin 1) k) + x4 (ix2 (0 : Fin 1) k))
          (fun k c' => x5 (ix2 k c')) (fun c' => x6 (ix2 (0 : Fin 1) c')) (fun c' => x7 (ix2 c' (0 : Fin 1)))
          (x8 (ix2 (0 : Fin 1) (0 : Fin 1))) (y 1) := by
  obtain ⟨p, q, rfl⟩ : ∃ (p : Fin 2048) (q : Fin 128), y = ix2 p q := ⟨y 0, y 1, eq_ix2 y⟩
  exact pay_apply x0 x1 x2 x3 x4 x5 x6 x7 x8 p q

end Cert.KernelIdeal.Payload

end
-- ==== Proof.Blocks.lean ====
/-
  FROM THE BLOCKS TO THE WHOLE ARRAY.

  The grid has 245 points; point `t` reads rows `2048 t … 2048 t + 2047` of the three padded feature arrays and the
  whole of the six small operands, and writes rows `2048 t … 2048 t + 2047` of the result. So the result array, after
  the run, holds at `(i, c)` the gated message of row `i` of the padded feature arrays: one function of the arrays
  the region finds, the same at every point.
-/
import proofs.«181398_j60696477827106_2_alg».proof.Proof.Gen.KernelIdeal.Frame
import proofs.«181398_j60696477827106_2_alg».proof.Proof.Payload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.EdgeSpec Cert.JoinCols Cert.KernelIdeal.Payload
open Idealize.ShloMosaic.Pipeline (Dat)

variable (m : (ℓ : Loc nD τ sig) → Buf (Elt Ideal) ℓ)

/-- The arrays the region finds, as functions on their index types. -/
abbrev A18 (c : Dev nD) : S501760x128.Idx → EReal := V m c main_v18
abbrev A19 (c : Dev nD) : S501760x128.Idx → EReal := V m c main_v19
abbrev A20 (c : Dev nD) : S501760x16.Idx → EReal := V m c main_v20
abbrev A27 (c : Dev nD) : S1x272.Idx → EReal := V m c main_v27
abbrev A28 (c : Dev nD) : S1x272.Idx → EReal := V m c main_v28
abbrev A29 (c : Dev nD) : S272x128.Idx → EReal := V m c main_v29
abbrev A30 (c : Dev nD) : S1x128.Idx → EReal := V m c main_v30
abbrev A31 (c : Dev nD) : S128x1.Idx → EReal := V m c main_v31
abbrev A32 (c : Dev nD) : S1x1.Idx → EReal := V m c main_v32

/-- The result array as one function of the arrays the region finds. -/
def result (c : Dev nD) : S501760x128.Idx → EReal := fun i =>
  rowOut (fun k => joinCols (by norm_num : 272 = 128 + 128 + 16) (A18 m c) (A19 m c) (A20 m c) (i 0) k
        * A27 m c (ix2 (0 : Fin 1) k) + A28 m c (ix2 (0 : Fin 1) k))
    (fun k c' => A29 m c (ix2 k c')) (fun c' => A30 m c (ix2 (0 : Fin 1) c')) (fun c' => A31 m c (ix2 c' (0 : Fin 1)))
    (A32 m c (ix2 (0 : Fin 1) (0 : Fin 1))) (i 1)

theorem hz : (![0, 0] : Fin 2 → Nat) = fun _ => 0 := funext fun a => by fin_cases a <;> rfl

/-- The printed index maps over the grid: the three feature windows and the result window move down one block of rows
    per point; the six small windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Each window's block at a point, read off its array -/

theorem iblk0_apply (c : Dev nD) (t : Fin cfg0.N) (x : S2048x128.Idx) (k : S501760x128.Idx)
    (hk0 : (k 0).val = 2048 * t.val + (x 0).val) (hk1 : (k 1).val = (x 1).val) :
    (iblk m c 0 t : S2048x128.Idx → EReal) x = A18 m c k := by
  have hi : win0_0.index t (0 : Fin 2) = t.val ∧ win0_0.index t (1 : Fin 2) = 0 := by
    obtain ⟨a0, a1, b0, b1, c0, c1, d0, d1, e0, e1, f0, f1, g0, g1, h0, h1, i0, i1, j0, j1⟩ := idx_facts t
    exact ⟨a0, a1⟩
  unfold iblk
  rw [View.read_apply]
  refine congrArg (A18 m c) ?_
  funext a
  apply Fin.ext
  match a with
  | ⟨0, _⟩ => show win0_0.index t (0 : Fin 2) * 2048 + 1 * (x 0).val = (k 0).val; rw [hi.1, hk0]; omega
  | ⟨1, _⟩ => show win0_0.index t (1 : Fin 2) * 128 + 1 * (x 1).val = (k 1).val; rw [hi.2, hk1]; omega

theorem iblk1_apply (c : Dev nD) (t : Fin cfg0.N) (x : S2048x128.Idx) (k : S501760x128.Idx)
    (hk0 : (k 0).val = 2048 * t.val + (x 0).val) (hk1 : (k 1).val = (x 1).val) :
    (iblk m c 1 t : S2048x128.Idx → EReal) x = A19 m c k := by
  have hi : win0_1.index t (0 : Fin 2) = t.val ∧ win0_1.index t (1 : Fin 2) = 0 := by
    obtain ⟨a0, a1, b0, b1, c0, c1, d0, d1, e0, e1, f0, f1, g0, g1, h0, h1, i0, i1, j0, j1⟩ := idx_facts t
    exact ⟨b0, b1⟩
  unfold iblk
  rw [View.read_apply]
  refine congrArg (A19 m c) ?_
  funext a
  apply Fin.ext
  match a with
  | ⟨0, _⟩ => show win0_1.index t (0 : Fin 2) * 2048 + 1 * (x 0).val = (k 0).val; rw [hi.1, hk0]; omega
  | ⟨1, _⟩ => show win0_1.index t (1 : Fin 2) * 128 + 1 * (x 1).val = (k 1).val; rw [hi.2, hk1]; omega

theorem iblk2_apply (c : Dev nD) (t : Fin cfg0.N) (x : S2048x16.Idx) (k : S501760x16.Idx)
    (hk0 : (k 0).val = 2048 * t.val + (x 0).val) (hk1 : (k 1).val = (x 1).val) :
    (iblk m c 2 t : S2048x16.Idx → EReal) x = A20 m c k := by
  have hi : win0_2.index t (0 : Fin 2) = t.val ∧ win0_2.index t (1 : Fin 2) = 0 := by
    obtain ⟨a0, a1, b0, b1, c0, c1, d0, d1, e0, e1, f0, f1, g0, g1, h0, h1, i0, i1, j0, j1⟩ := idx_facts t
    exact ⟨c0, c1⟩
  unfold iblk
  rw [View.read_apply]
  refine congrArg (A20 m c) ?_
  funext a
  apply Fin.ext
  match a with
  | ⟨0, _⟩ => show win0_2.index t (0 : Fin 2) * 2048 + 1 * (x 0).val = (k 0).val; rw [hi.1, hk0]; omega
  | ⟨1, _⟩ => show win0_2.index t (1 : Fin 2) * 16 + 1 * (x 1).val = (k 1).val; rw [hi.2, hk1]; omega

theorem iblk3_apply (c : Dev nD) (t : Fin cfg0.N) (x : S1x272.Idx) (k : S1x272.Idx)
    (hk0 : (k 0).val = (x 0).val) (hk1 : (k 1).val = (x 1).val) :
    (iblk m c 3 t : S1x272.Idx → EReal) x = A27 m c k := by
  have hi : win0_3.index t (0 : Fin 2) = 0 ∧ win0_3.index t (1 : Fin 2) = 0 := by
    obtain ⟨a0, a1, b0, b1, c0, c1, d0, d1, e0, e1, f0, f1, g0, g1, h0, h1, i0, i1, j0, j1⟩ := idx_facts t
    exact ⟨d0, d1⟩
  unfold iblk
  rw [View.read_apply]
  refine congrArg (A27 m c) ?_
  funext a
  apply Fin.ext
  match a with
  | ⟨0, _⟩ => show win0_3.index t (0 : Fin 2) * 1 + 1 * (x 0).val = (k 0).val; rw [hi.1, hk0]; omega
  | ⟨1, _⟩ => show win0_3.index t (1 : Fin 2) * 272 + 1 * (x 1).val = (k 1).val; rw [hi.2, hk1]; omega

theorem iblk4_apply (c : Dev nD) (t : Fin cfg0.N) (x : S1x272.Idx) (k : S1x272.Idx)
    (hk0 : (k 0).val = (x 0).val) (hk1 : (k 1).val = (x 1).val) :
    (iblk m c 4 t : S1x272.Idx → EReal) x = A28 m c k := by
  have hi : win0_4.index t (0 : Fin 2) = 0 ∧ win0_4.index t (1 : Fin 2) = 0 := by
    obtain ⟨a0, a1, b0, b1, c0, c1, d0, d1, e0, e1, f0, f1, g0, g1, h0, h1, i0, i1, j0, j1⟩ := idx_facts t
    exact ⟨e0, e1⟩
  unfold iblk
  rw [View.read_apply]
  refine congrArg (A28 m c) ?_
  funext a
  apply Fin.ext
  match a with
  | ⟨0, _⟩ => show win0_4.index t (0 : Fin 2) * 1 + 1 * (x 0).val = (k 0).val; rw [hi.1, hk0]; omega
  | ⟨1, _⟩ => show win0_4.index t (1 : Fin 2) * 272 + 1 * (x 1).val = (k 1).val; rw [hi.2, hk1]; omega

theorem iblk5_apply (c : Dev nD) (t : Fin cfg0.N) (x : S272x128.Idx) (k : S272x128.Idx)
    (hk0 : (k 0).val = (x 0).val) (hk1 : (k 1).val = (x 1).val) :
    (iblk m c 5 t : S272x128.Idx → EReal) x = A29 m c k := by
  have hi : win0_5.index t (0 : Fin 2) = 0 ∧ win0_5.index t (1 : Fin 2) = 0 := by
    obtain ⟨a0, a1, b0, b1, c0, c1, d0, d1, e0, e1, f0, f1, g0, g1, h0, h1, i0, i1, j0, j1⟩ := idx_facts t
    exact ⟨f0, f1⟩
  unfold iblk
  rw [View.read_apply]
  refine congrArg (A29 m c) ?_
  funext a
  apply Fin.ext
  match a with
  | ⟨0, _⟩ => show win0_5.index t (0 : Fin 2) * 272 + 1 * (x 0).val = (k 0).val; rw [hi.1, hk0]; omega
  | ⟨1, _⟩ => show win0_5.index t (1 : Fin 2) * 128 + 1 * (x 1).val = (k 1).val; rw [hi.2, hk1]; omega

theorem iblk6_apply (c : Dev nD) (t : Fin cfg0.N) (x : S1x128.Idx) (k : S1x128.Idx)
    (hk0 : (k 0).val = (x 0).val) (hk1 : (k 1).val = (x 1).val) :
    (iblk m c 6 t : S1x128.Idx → EReal) x = A30 m c k := by
  have hi : win0_6.index t (0 : Fin 2) = 0 ∧ win0_6.index t (1 : Fin 2) = 0 := by
    obtain ⟨a0, a1, b0, b1, c0, c1, d0, d1, e0, e1, f0, f1, g0, g1, h0, h1, i0, i1, j0, j1⟩ := idx_facts t
    exact ⟨g0, g1⟩
  unfold iblk
  rw [View.read_apply]
  refine congrArg (A30 m c) ?_
  funext a
  apply Fin.ext
  match a with
  | ⟨0, _⟩ => show win0_6.index t (0 : Fin 2) * 1 + 1 * (x 0).val = (k 0).val; rw [hi.1, hk0]; omega
  | ⟨1, _⟩ => show win0_6.index t (1 : Fin 2) * 128 + 1 * (x 1).val = (k 1).val; rw [hi.2, hk1]; omega

theorem iblk7_apply (c : Dev nD) (t : Fin cfg0.N) (x : S128x1.Idx) (k : S128x1.Idx)
    (hk0 : (k 0).val = (x 0).val) (hk1 : (k 1).val = (x 1).val) :
    (iblk m c 7 t : S128x1.Idx → EReal) x = A31 m c k := by
  have hi : win0_7.index t (0 : Fin 2) = 0 ∧ win0_7.index t (1 : Fin 2) = 0 := by
    obtain ⟨a0, a1, b0, b1, c0, c1, d0, d1, e0, e1, f0, f1, g0, g1, h0, h1, i0, i1, j0, j1⟩ := idx_facts t
    exact ⟨h0, h1⟩
  unfold iblk
  rw [View.read_apply]
  refine congrArg (A31 m c) ?_
  funext a
  apply Fin.ext
  match a with
  | ⟨0, _⟩ => show win0_7.index t (0 : Fin 2) * 128 + 1 * (x 0).val = (k 0).val; rw [hi.1, hk0]; omega
  | ⟨1, _⟩ => show win0_7.index t (1 : Fin 2) * 1 + 1 * (x 1).val = (k 1).val; rw [hi.2, hk1]; omega

theorem iblk8_apply (c : Dev nD) (t : Fin cfg0.N) (x : S1x1.Idx) (k : S1x1.Idx)
    (hk0 : (k 0).val = (x 0).val) (hk1 : (k 1).val = (x 1).val) :
    (iblk m c 8 t : S1x1.Idx → EReal) x = A32 m c k := by
  have hi : win0_8.index t (0 : Fin 2) = 0 ∧ win0_8.index t (1 : Fin 2) = 0 := by
    obtain ⟨a0, a1, b0, b1, c0, c1, d0, d1, e0, e1, f0, f1, g0, g1, h0, h1, i0, i1, j0, j1⟩ := idx_facts t
    exact ⟨i0, i1⟩
  unfold iblk
  rw [View.read_apply]
  refine congrArg (A32 m c) ?_
  funext a
  apply Fin.ext
  match a with
  | ⟨0, _⟩ => show win0_8.index t (0 : Fin 2) * 1 + 1 * (x 0).val = (k 0).val; rw [hi.1, hk0]; omega
  | ⟨1, _⟩ => show win0_8.index t (1 : Fin 2) * 1 + 1 * (x 1).val = (k 1).val; rw [hi.2, hk1]; omega

/-! ## What a point writes back, and the whole array -/

/-- Point `t` writes back block `t` of `result`. -/
theorem flushed9_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  unfold out0_9
  rw [View.canon_unit_zero hz]
  simp only [View.ld_unit_zero (S := S2048x128) hz, View.ld_unit_zero (S := S2048x16) hz, View.ld_unit_zero (S := S1x272) hz,
    View.ld_unit_zero (S := S272x128) hz, View.ld_unit_zero (S := S1x128) hz, View.ld_unit_zero (S := S128x1) hz,
    View.ld_unit_zero (S := S1x1) hz]
  funext j
  refine (pay_at (iblk m c 0 t) (iblk m c 1 t) (iblk m c 2 t) (iblk m c 3 t) (iblk m c 4 t) (iblk m c 5 t) (iblk m c 6 t)
    (iblk m c 7 t) (iblk m c 8 t) j).trans ?_
  show _ = result m c (((cfg0.win 9).blk t).view.emb j)
  have hi : win0_9.index t (0 : Fin 2) = t.val ∧ win0_9.index t (1 : Fin 2) = 0 := by
    obtain ⟨a0, a1, b0, b1, c0, c1, d0, d1, e0, e1, f0, f1, g0, g1, h0, h1, i0, i1, j0, j1⟩ := idx_facts t
    exact ⟨j0, j1⟩
  have hrow : ((((cfg0.win 9).blk t).view.emb j) 0).val = 2048 * t.val + (j 0).val := by
    show win0_9.index t (0 : Fin 2) * 2048 + 1 * (j 0).val = _
    rw [hi.1]; omega
  have hcol : (j 1 : Fin 128) = (((cfg0.win 9).blk t).view.emb j) 1 := Fin.ext (by
    show (j 1).val = win0_9.index t (1 : Fin 2) * 128 + 1 * (j 1).val
    rw [hi.2]; omega)
  unfold result
  exact rowOut_congr
    (fun k => by
      rw [joinCols_congr (by norm_num : 272 = 128 + 128 + 16) (iblk m c 0 t) (iblk m c 1 t) (iblk m c 2 t) (A18 m c) (A19 m c) (A20 m c)
        (j 0) ((((cfg0.win 9).blk t).view.emb j) 0)
        (fun q => iblk0_apply m c t _ _ hrow rfl) (fun q => iblk1_apply m c t _ _ hrow rfl) (fun q => iblk2_apply m c t _ _ hrow rfl) k,
        iblk3_apply m c t _ _ rfl rfl, iblk4_apply m c t _ _ rfl rfl])
    (fun k q => iblk5_apply m c t _ _ rfl rfl) (fun q => iblk6_apply m c t _ _ rfl rfl) (fun q => iblk7_apply m c t _ _ rfl rfl)
    (iblk8_apply m c t _ _ rfl rfl) hcol

/-- An index of the result array is in point `t`'s block iff each coordinate is in the block's range. -/
theorem mem_blk9 (t : Fin cfg0.N) (i : S501760x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v33).slice (win0_9.rect t)).set ↔ _
  rw [View.set_slice_whole, Rect.mem_set_unit]
  exact Iff.rfl

/-- The blocks of the 245 points tile the result array, so it ends holding `result`. -/
theorem final9 (c : Dev nD) : (dats m 0 c).arrAt 9 cfg0.N = result m c :=
  (dats m 0 c).arrAt_eq_of_cover 9 (result m c) (fun t _ => flushed9_eq m c t) fun i => by
    have h0 : (i 0).val < 501760 := (i 0).isLt
    have h1 : (i 1).val < 128 := (i 1).isLt
    have hN : cfg0.N = 245 := N_0
    have ht : (i 0).val / 2048 < cfg0.N := by rw [hN]; omega
    have hi : win0_9.index ⟨(i 0).val / 2048, ht⟩ (0 : Fin 2) = (i 0).val / 2048 ∧ win0_9.index ⟨(i 0).val / 2048, ht⟩ (1 : Fin 2) = 0 := by
      obtain ⟨a0, a1, b0, b1, c0, c1, d0, d1, e0, e1, f0, f1, g0, g1, h0, h1, i0, i1, j0, j1⟩ := idx_facts ⟨(i 0).val / 2048, ht⟩
      exact ⟨j0, j1⟩
    refine ⟨⟨(i 0).val / 2048, ht⟩, flush0_9 _, ?_⟩
    rw [mem_blk9]
    intro a
    match a with
    | ⟨0, _⟩ =>
      show win0_9.index ⟨(i 0).val / 2048, ht⟩ (0 : Fin 2) * 2048 ≤ (i 0).val
        ∧ (i 0).val < win0_9.index ⟨(i 0).val / 2048, ht⟩ (0 : Fin 2) * 2048 + 2048
      rw [hi.1]; omega
    | ⟨1, _⟩ =>
      show win0_9.index ⟨(i 0).val / 2048, ht⟩ (1 : Fin 2) * 128 ≤ (i 1).val
        ∧ (i 1).val < win0_9.index ⟨(i 0).val / 2048, ht⟩ (1 : Fin 2) * 128 + 128
      rw [hi.2]; omega

end Cert.KernelIdeal.Blocks

end
-- ==== Proof.KArrays.lean ====
/-
  THE ARRAYS THE REGION FINDS, AS TERMS OF THE ARGUMENTS.

  Before the region the host gathers the sender and receiver rows of every edge, pads the three feature arrays with
  1760 rows of zeros (500000 edges up to 245 blocks of 2048), folds the normalisation into one factor
  `γ / √(var + ε)` and one offset `β - mean · factor` per column, and recasts the small operands. Each array the
  region finds is that term of the arguments; the two gathered arrays are the reference's own gathered arrays.
-/
import proofs.«181398_j60696477827106_2_alg».proof.Proof.Blocks
import proofs.«181398_j60696477827106_2_alg».proof.Proof.Gen.ReferenceIdeal.Read
import Idealize.ShloMosaic.Lib.StableHlo.Run

set_option maxRecDepth 16384

noncomputable section

namespace Cert.KernelIdeal.KArrays

open Cert.KernelIdeal Cert.KernelIdeal.Gen Idealize.ShloMosaic Idealize.ShloMosaic.TcCoe Idealize.SL.Sem Idealize.ShloMosaic.StableHlo
open Cert.KernelIdeal.Blocks

variable (m : (ℓ : Loc nD τ sig) → Buf (Elt Ideal) ℓ)

/-- The argument arrays of device `c`. -/
abbrev a0 (c : Dev nD) : S100000x128.Idx → EReal := m ((c : Thread nD τ).loc main_arg0)
abbrev a1 (c : Dev nD) : S100000x128.Idx → EReal := m ((c : Thread nD τ).loc main_arg1)
abbrev a2 (c : Dev nD) : S2x500000.Idx → BitVec 32 := m ((c : Thread nD τ).loc main_arg2)
abbrev a3 (c : Dev nD) : S500000x16.Idx → EReal := m ((c : Thread nD τ).loc main_arg3)
abbrev a4 (c : Dev nD) : S272.Idx → EReal := m ((c : Thread nD τ).loc main_arg4)
abbrev a5 (c : Dev nD) : S272.Idx → EReal := m ((c : Thread nD τ).loc main_arg5)
abbrev a6 (c : Dev nD) : S272.Idx → EReal := m ((c : Thread nD τ).loc main_arg6)
abbrev a7 (c : Dev nD) : S272.Idx → EReal := m ((c : Thread nD τ).loc main_arg7)
abbrev a8 (c : Dev nD) : S272x128.Idx → EReal := m ((c : Thread nD τ).loc main_arg8)
abbrev a9 (c : Dev nD) : S128.Idx → EReal := m ((c : Thread nD τ).loc main_arg9)
abbrev a10 (c : Dev nD) : S128x1.Idx → EReal := m ((c : Thread nD τ).loc main_arg10)
abbrev a11 (c : Dev nD) : S1.Idx → EReal := m ((c : Thread nD τ).loc main_arg11)

/-- The sender rows of the edges, as the reference gathers them. -/
abbrev gs (c : Dev nD) : S500000x128.Idx → EReal := Cert.ReferenceIdeal.Read.val_main_v10 (F := Ideal) (a0 m c) (a2 m c)
/-- The receiver rows of the edges, as the reference gathers them. -/
abbrev gr (c : Dev nD) : S500000x128.Idx → EReal := Cert.ReferenceIdeal.Read.val_main_v17 (F := Ideal) (a1 m c) (a2 m c)
/-- The padding value: the integer zero converted. -/
abbrev zpad : S_.Idx → EReal := sitofp (F := Ideal) .f32 (constantI S_ 32 0#32)
/-- The per-column factor `γ / √(var + ε)`. -/
abbrev factor (c : Dev nD) : S272.Idx → EReal :=
  mulf (a4 m c) (Host.rsqrt (addf (a7 m c) (broadcastInDim S272 ![] Facts₀.bcast_S_S272 (constant (F := Ideal) S_ .f32 0x3727C5AC#32))))

macro "open_prefix" : tactic => `(tactic| (
  dsimp only [A18, A19, A20, A27, A28, A29, A30, A31, A32, Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results))

set_option maxHeartbeats 4000000 in
theorem A18_eq (c : Dev nD) : A18 m c = pad S501760x128 ![0, 0] ![1760, 0] ![0, 0] (gs m c) zpad
    Facts₀.pads_S500000x128_S501760x128_017600_000 Facts₀.h_S_ := by
  open_prefix; rfl

set_option maxHeartbeats 4000000 in
theorem A19_eq (c : Dev nD) : A19 m c = pad S501760x128 ![0, 0] ![1760, 0] ![0, 0] (gr m c) zpad
    Facts₀.pads_S500000x128_S501760x128_017600_000 Facts₀.h_S_ := by
  open_prefix; rfl

set_option maxHeartbeats 4000000 in
theorem A20_eq (c : Dev nD) : A20 m c = pad S501760x16 ![0, 0] ![1760, 0] ![0, 0] (a3 m c) zpad
    Facts₀.pads_S500000x16_S501760x16_017600_000 Facts₀.h_S_ := by
  open_prefix; rfl

set_option maxHeartbeats 4000000 in
theorem A27_eq (c : Dev nD) : A27 m c = shapeCast S1x272 (factor m c) Facts₀.shapeCasts_S272_S1x272 := by
  open_prefix; rfl

set_option maxHeartbeats 4000000 in
theorem A28_eq (c : Dev nD) : A28 m c = shapeCast S1x272 (subf (F := Ideal) (φ := .f32) (a5 m c) (mulf (F := Ideal) (φ := .f32) (a6 m c) (factor m c))) Facts₀.shapeCasts_S272_S1x272 := by
  open_prefix; rfl

set_option maxHeartbeats 4000000 in
theorem A29_eq (c : Dev nD) : A29 m c = (a8 m c) := by
  open_prefix; rfl

set_option maxHeartbeats 4000000 in
theorem A30_eq (c : Dev nD) : A30 m c = shapeCast S1x128 (a9 m c) Facts₀.shapeCasts_S128_S1x128 := by
  open_prefix; rfl

set_option maxHeartbeats 4000000 in
theorem A31_eq (c : Dev nD) : A31 m c = (a10 m c) := by
  open_prefix; rfl

set_option maxHeartbeats 4000000 in
theorem A32_eq (c : Dev nD) : A32 m c = shapeCast S1x1 (a11 m c) Facts₀.shapeCasts_S1_S1x1 := by
  open_prefix; rfl

set_option maxHeartbeats 4000000 in
/-- The receiver indices of the edges, as the reference slices them out. -/
theorem idx_eq (c : Dev nD) : (V m c main_v3 : S500000.Idx → BitVec 32) = Cert.ReferenceIdeal.Read.val_main_v3 (F := Ideal) (a2 m c) := by
  open_prefix; rfl

end Cert.KernelIdeal.KArrays

end
-- ==== Proof.KValue.lean ====
/-
  THE KERNEL'S RESULT AS ONE TERM OF THE ARGUMENTS.

  On a true edge row `e < 500000` the padded feature arrays hold the edge's gathered rows and attributes, the two
  folded normalisation rows hold `γ / √(var + ε)` and `β - mean · γ / √(var + ε)`, and the small operands hold the
  layers' weights; so the result array holds, at `(e, c)`, the gated message of edge `e` with the normalisation in its
  folded spelling. After the region the host drops the 1760 padded rows and adds every edge's row into the row of its
  receiving node.
-/
import proofs.«181398_j60696477827106_2_alg».proof.Proof.KArrays
import Idealize.ShloMosaic.Lib.KernelVsHost
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.EdgeSpec Cert.JoinCols Cert.KernelIdeal.Blocks Cert.KernelIdeal.KArrays

variable (m : (ℓ : Loc nD τ sig) → Buf (Elt Ideal) ℓ)

/-! ## The padded arrays on a true edge row -/

theorem A18_at (c : Dev nD) (k : S501760x128.Idx) (e : Fin 500000) (q : Fin 128) (hk0 : (k 0).val = e.val) (hk1 : (k 1).val = q.val) :
    A18 m c k = gs m c (ix2 e q) := by
  rw [A18_eq]
  exact pad_apply_of_inside _ _ _ (gs m c) zpad _ _ k (ix2 e q) (fun a => match a with
    | ⟨0, _⟩ => by show (k 0).val = 0 + e.val * (0 + 1); omega
    | ⟨1, _⟩ => by show (k 1).val = 0 + q.val * (0 + 1); omega)

theorem A19_at (c : Dev nD) (k : S501760x128.Idx) (e : Fin 500000) (q : Fin 128) (hk0 : (k 0).val = e.val) (hk1 : (k 1).val = q.val) :
    A19 m c k = gr m c (ix2 e q) := by
  rw [A19_eq]
  exact pad_apply_of_inside _ _ _ (gr m c) zpad _ _ k (ix2 e q) (fun a => match a with
    | ⟨0, _⟩ => by show (k 0).val = 0 + e.val * (0 + 1); omega
    | ⟨1, _⟩ => by show (k 1).val = 0 + q.val * (0 + 1); omega)

theorem A20_at (c : Dev nD) (k : S501760x16.Idx) (e : Fin 500000) (q : Fin 16) (hk0 : (k 0).val = e.val) (hk1 : (k 1).val = q.val) :
    A20 m c k = a3 m c (ix2 e q) := by
  rw [A20_eq]
  exact pad_apply_of_inside _ _ _ (a3 m c) zpad _ _ k (ix2 e q) (fun a => match a with
    | ⟨0, _⟩ => by show (k 0).val = 0 + e.val * (0 + 1); omega
    | ⟨1, _⟩ => by show (k 1).val = 0 + q.val * (0 + 1); omega)

/-! ## The folded normalisation rows and the recast operands -/

/-- The factor at column `k`. -/
abbrev fac (c : Dev nD) (k : Fin 272) : EReal :=
  a4 m c (ix1 k) * Ideal.rsqrt (a7 m c (ix1 k) + Ideal.ofBits .f32 0x3727C5AC#32)

theorem A27_at (c : Dev nD) (k : Fin 272) : A27 m c (ix2 (0 : Fin 1) k) = fac m c k := by
  rw [A27_eq, shapeCast_a_1a_apply]; rfl

theorem A28_at (c : Dev nD) (k : Fin 272) : A28 m c (ix2 (0 : Fin 1) k) = a5 m c (ix1 k) - a6 m c (ix1 k) * fac m c k := by
  rw [A28_eq, shapeCast_a_1a_apply]; rfl

theorem A30_at (c : Dev nD) (q : Fin 128) : A30 m c (ix2 (0 : Fin 1) q) = a9 m c (ix1 q) := by
  rw [A30_eq, shapeCast_a_1a_apply]

theorem A32_at (c : Dev nD) : A32 m c (ix2 (0 : Fin 1) (0 : Fin 1)) = a11 m c (ix1 (0 : Fin 1)) := by
  rw [A32_eq, shapeCast_a_1a_apply]

/-! ## The result array on a true edge row -/

theorem result_at (c : Dev nD) (i : S501760x128.Idx) (e : Fin 500000) (q : Fin 128) (hi0 : (i 0).val = e.val) (hi1 : (i 1 : Fin 128) = q) :
    result m c i = rowOut (fun k => joinCols (by norm_num : 272 = 128 + 128 + 16) (gs m c) (gr m c) (a3 m c) e k * fac m c k
          + (a5 m c (ix1 k) - a6 m c (ix1 k) * fac m c k))
        (fun k c' => a8 m c (ix2 k c')) (fun c' => a9 m c (ix1 c')) (fun c' => a10 m c (ix2 c' (0 : Fin 1)))
        (a11 m c (ix1 (0 : Fin 1))) q := by
  unfold result
  exact rowOut_congr
    (fun k => by
      rw [joinCols_congr (by norm_num : 272 = 128 + 128 + 16) (A18 m c) (A19 m c) (A20 m c) (gs m c) (gr m c) (a3 m c) (i 0) e
        (fun j => A18_at m c _ e j hi0 rfl) (fun j => A19_at m c _ e j hi0 rfl) (fun j => A20_at m c _ e j hi0 rfl) k,
        A27_at, A28_at])
    (fun k q' => by rw [A29_eq]) (fun q' => A30_at m c q') (fun q' => by rw [A31_eq]) (A32_at m c) hi1

/-! ## After the region -/

/-- What the kernel's entry point returns. -/
def final (c : Dev nD) : S100000x128.Idx → EReal :=
  Host.scatterAdd scatter_S100000x128_S500000x1_S500000x128_1_0_0_1
    (broadcastInDim S100000x128 ![] Facts₀.bcast_S_S100000x128 (constant (F := Ideal) S_ .f32 0x00000000#32))
    (broadcastInDim S500000x1 ![0] Facts₀.bcast_S500000_S500000x1_0 (Cert.ReferenceIdeal.Read.val_main_v3 (F := Ideal) (a2 m c)))
    (extractStridedSlice S500000x128 ![0, 0] (result m c) Facts₀.slices_S501760x128_S500000x128_0_0)

set_option maxHeartbeats 4000000 in
theorem tail_eq (c : Dev nD) :
    (Pipeline.afterTail₀ cfgs (dats m) 0 (V0 m) [hostOps1] c main_v37 : S100000x128.Idx → EReal) = final m c := by
  have h33 : Pipeline.withArrays (cfgs 0).spec c (V0 m c) (fun w => (dats m 0 c).arrAt w (cfgs 0).N) (Proc.devRef .tc main_v33)
      = result m c := (Pipeline.withArrays_arr spec0 launch0.win.arr_inj c _ _ 9).trans (final9 m c)
  have h3 : Pipeline.withArrays (cfgs 0).spec c (V0 m c) (fun w => (dats m 0 c).arrAt w (cfgs 0).N) (Proc.devRef .tc main_v3)
      = Cert.ReferenceIdeal.Read.val_main_v3 (F := Ideal) (a2 m c) :=
    (Pipeline.withArrays_of_ne _ c (V0 m c) _ main_v3 (by exact (by decide : ∀ w, Pipeline.arrRef spec0 w ≠ main_v3))).trans (idx_eq m c)
  unfold Pipeline.afterTail₀
  show StableHlo.after hostOps1 _ (Proc.devRef .tc main_v37) = _
  after_results
  rw [h33, h3]
  rfl

end Cert.KernelIdeal.KValue

end
-- ==== Proof.LibRowOps.lean ====
/-
  ROW AND COLUMN SPREADS OF SMALL ARRAYS, AND THE SWAP OF A MATRIX'S AXES, READ AT AN INDEX.

  A bias vector `[c]` added to every row of an `[a, c]` array is first recast to `[1, c]` and then spread over
  the rows; the device spells this with a shape cast and a broadcast, the host with two `broadcast_in_dim`s. Either
  way the entry at `(p, q)` is the vector's entry `q`. A column `[a, 1]` spread over the columns of `[a, b]` by the
  host reads the column's entry of row `p`. The transpose with permutation `[1, 0]` of an `[a, b]` array reads, at
  `(p, q)`, the entry `(q, p)`.
-/
import Idealize.ShloMosaic.Lib.ValueIdx
import Idealize.ShloMosaic.Lib.Pipeline.Value

noncomputable section

namespace Cert.RowOps

open Idealize.ShloMosaic Idealize.ShloMosaic.ValueIdx

/-- The transpose `[a, b] → [b, a]` reads, at `(p, q)`, the entry `(q, p)`. -/
theorem transpose_swap_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun d => match d with
    | ⟨0, _⟩ => rfl
    | ⟨1, _⟩ => rfl

/-- On the device: a vector `[c]` recast to `[1, c]` and spread over the rows of `[a, c]` reads, at `(p, q)`, its entry `q`. -/
theorem rowSpread_apply {α : Type} {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (p : Fin a) (q : Fin c) :
    broadcastTo ⟨2, ![a, c]⟩ (shapeCast ⟨2, ![1, c]⟩ v h1) h2 (ix2 p q) = v (ix1 q) := by
  rw [broadcastTo_apply (shapeCast ⟨2, ![1, c]⟩ v h1) h2 (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  refine (shapeCast_addUnit_apply ![c] v h1 (ix2 (0 : Fin 1) q)).trans (congrArg v ?_)
  funext d
  match d with
  | ⟨0, _⟩ => rfl

/-- On the host: a vector `[c]` placed as the one row of `[1, c]` and spread over the rows of `[a, c]` reads, at
    `(p, q)`, its entry `q`. -/
theorem hostRowSpread_apply {α : Type} {a c : ℕ} (v : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (p : Fin a) (q : Fin c) :
    broadcastInDim ⟨2, ![a, c]⟩ ![0, 1] h2 (broadcastInDim ⟨2, ![1, c]⟩ ![1] h1 v) (ix2 p q) = v (ix1 q) := by
  rw [broadcastInDim_apply ![0, 1] h2 _ (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  exact broadcastInDim_apply ![1] h1 v (ix2 (0 : Fin 1) q) (ix1 q) (fun d => match d with
    | ⟨0, _⟩ => by
        show q.val = if c = 1 then 0 else q.val
        split
        · have := q.isLt; omega
        · rfl)

/-- On the host: a column `[a, 1]` spread over the columns of `[a, b]` reads, at `(p, q)`, the column's entry of row `p`. -/
theorem hostColSpread_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) (fun d => match d with
    | ⟨0, _⟩ => by
        show p.val = if a = 1 then 0 else p.val
        split
        · have := p.isLt; omega
        · rfl
    | ⟨1, _⟩ => by show (0 : ℕ) = if (1 : ℕ) = 1 then 0 else q.val; rw [if_pos rfl])

end Cert.RowOps

end
-- ==== Proof.LibSpreadDims.lean ====
/-
  ROW AND COLUMN SPREADS ON THE HOST, WITH THE AXIS MAP AS A VARIABLE.

  The same two facts as for the literal axis maps — a vector `[c]` placed as the one row of `[1, c]` and spread over the
  rows of `[a, c]` reads its entry `q` at `(p, q)`; a column `[a, 1]` spread over the columns of `[a, b]` reads its entry of
  row `p` — stated for any axis map that equals the literal one (`![1]`, `![0, 1]`): the map enters as a variable and the
  equation as a hypothesis.
-/
import proofs.«181398_j60696477827106_2_alg».proof.Proof.LibRowOps

noncomputable section

namespace Cert.SpreadDims

open Idealize.ShloMosaic Idealize.ShloMosaic.ValueIdx Cert.RowOps

/-- A vector spread over the rows of `[a, c]` through `[1, c]`, read at `(p, q)`. -/
theorem hostRowSpread_dims_apply {α : Type} {a c : ℕ} (d1 : Fin 1 → Fin 2) (d2 : Fin 2 → Fin 2) (v : (⟨1, ![c]⟩ : Shape).Idx → α)
    (h1 : (⟨1, ![c]⟩ : Shape).BroadcastsInDim ⟨2, ![1, c]⟩ d1)
    (h2 : (⟨2, ![1, c]⟩ : Shape).BroadcastsInDim ⟨2, ![a, c]⟩ d2) (hd1 : d1 = ![1]) (hd2 : d2 = ![0, 1]) (p : Fin a) (q : Fin c) :
    broadcastInDim ⟨2, ![a, c]⟩ d2 h2 (broadcastInDim ⟨2, ![1, c]⟩ d1 h1 v) (ix2 p q) = v (ix1 q) := by
  subst hd1; subst hd2; exact hostRowSpread_apply v h1 h2 p q

/-- A column spread over the columns of `[a, b]`, read at `(p, q)`. -/
theorem hostColSpread_dims_apply {α : Type} {a b : ℕ} (d : Fin 2 → Fin 2) (v : (⟨2, ![a, 1]⟩ : Shape).Idx → α)
    (h : (⟨2, ![a, 1]⟩ : Shape).BroadcastsInDim ⟨2, ![a, b]⟩ d) (hd : d = ![0, 1]) (p : Fin a) (q : Fin b) :
    broadcastInDim ⟨2, ![a, b]⟩ d h v (ix2 p q) = v (ix2 p (0 : Fin 1)) := by
  subst hd; exact hostColSpread_apply v h p q

end Cert.SpreadDims

end
-- ==== Proof.RefSide.lean ====
/-
  THE REFERENCE'S PER-EDGE ARRAY AT ONE ENTRY.

  The reference gathers the two node rows of every edge, joins them with the edge's attributes, normalises each
  column as `(s - mean) · (γ / √(var + ε)) + β`, and applies the two dense layers with the logistic function written
  out as `1 / (1 + e^(-x))`. Entry `(e, c)` of the array it scatters is the gated message (`Cert.EdgeSpec.rowOut`) of
  the joined row `e`. The two gathered arrays are never opened: both programs hold the same ones.
-/
import proofs.«181398_j60696477827106_2_alg».proof.Proof.Gen.ReferenceIdeal.Read
import proofs.«181398_j60696477827106_2_alg».proof.Proof.EdgeSpec
import proofs.«181398_j60696477827106_2_alg».proof.Proof.LibMatOps
import proofs.«181398_j60696477827106_2_alg».proof.Proof.LibRowOps
import proofs.«181398_j60696477827106_2_alg».proof.Proof.LibSpreadDims
import proofs.«181398_j60696477827106_2_alg».proof.Proof.LibJoinCols
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeSpec Cert.MatOps Cert.RowOps Cert.JoinCols Cert.SpreadDims

theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostRsqrt_apply {s : Shape} {φ : FTy} (a : FVec Ideal s φ) (i : s.Idx) : Host.rsqrt a i = Ideal.rsqrt (a i) := rfl

/-- A scalar constant spread over any shape reads its word everywhere. -/
theorem bcast_const_apply {s t : Shape} {φ : FTy} (dims : Fin s.rank → Fin t.rank) (h : s.BroadcastsInDim t dims)
    (w : BitVec φ.bits) (j : t.Idx) : broadcastInDim t dims h (constant (F := Ideal) s φ w) j = Ideal.ofBits φ w := rfl

variable [Cert.ReferenceIdeal.Facts]

theorem dot1_eq : dot_S500000x272_S272x128_S500000x128_1_0_0_1_n_n
    = plainDot 500000 272 128 Facts₀.dot_S500000x272_S272x128_S500000x128_1_0_0_1_n_n_wf := rfl

theorem dot2_eq : dot_S500000x128_S128x1_S500000x1_1_0_0_1_n_n
    = plainDot 500000 128 1 Facts₀.dot_S500000x128_S128x1_S500000x1_1_0_0_1_n_n_wf := rfl

/-- Entry `(e, c)` of the array the reference scatters. -/
theorem updates_apply (x0 x1 : (⟨S100000x128, .f32⟩ : BufTy).Contents (Elt Ideal)) (x2 : (⟨S2x500000, .i32⟩ : BufTy).Contents (Elt Ideal))
    (x3 : (⟨S500000x16, .f32⟩ : BufTy).Contents (Elt Ideal)) (x4 x5 x6 x7 : (⟨S272, .f32⟩ : BufTy).Contents (Elt Ideal))
    (x8 : (⟨S272x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal))
    (e : Fin 500000) (c : Fin 128) :
    val_main_v48 (F := Ideal) x0 x1 x2 x3 x4 x5 x6 x7 x8 x9 x10 x11 (ix2 e c)
      = rowOut (fun k => (joinCols (by norm_num : 272 = 128 + 128 + 16) (val_main_v10 (F := Ideal) x0 x2) (val_main_v17 (F := Ideal) x1 x2) x3 e k
              - x6 (ix1 k)) * (x4 (ix1 k) * Ideal.rsqrt (x7 (ix1 k) + Ideal.ofBits .f32 0x3727C5AC#32)) + x5 (ix1 k))
          (fun k c' => x8 (ix2 k c')) (fun c' => x9 (ix1 c')) (fun c' => x10 (ix2 c' (0 : Fin 1))) (x11 (ix1 (0 : Fin 1))) c := by
  simp only [val_main_v48, val_main_v47, val_main_v46, val_main_v45, val_main_v44, val_main_v43, val_main_v42, val_main_v41,
    val_main_v40, val_main_v39, val_main_v38, val_main_v37, val_main_v36, val_main_call0_v5, val_main_call0_v4,
    val_main_call0_v3, val_main_call0_v2, val_main_call0_v1, val_main_call0_v0, val_main_call0_cst, val_main_call0_cst_0,
    val_main_cst_3, val_main_cst_4, val_main_v35, val_main_v34, val_main_v33, val_main_v32, val_main_v31, val_main_v30,
    val_main_v29, val_main_v28, val_main_v27, val_main_v26, val_main_v25, val_main_v24, val_main_v23, val_main_v22,
    val_main_cst, val_main_v21, val_main_v20, val_main_v19, val_main_v18, dot1_eq, dot2_eq]
  simp only [mulf_apply, addf_apply, subf_apply, hostDivf_apply, hostExp_apply, hostNegf_apply, hostRsqrt_apply,
    bcast_const_apply, hostRowSpread_dims_apply _ _ _ _ _ rfl rfl, hostColSpread_dims_apply _ _ _ rfl, dotGeneral_plain_apply,
    concatenate3_cols_apply (by norm_num : 272 = 128 + 128 + 16), logistic_spelled]
  rfl

end Cert.ReferenceIdeal.RefValue

end
-- ==== Proof.Finite.lean ====
/-
  WHAT THE PRECONDITION SAYS ABOUT THE NORMALISATION PARAMETERS.

  The precondition is one boolean: every float input finite — `|x| < +∞` at every entry — and the variance vector
  non-negative. Read at column `k` it gives four reals — scale `γ`, offset `β`, mean and variance — with the variance `≥ 0`.
-/
import proofs.«181398_j60696477827106_2_alg».proof.Pre_finite_inputs
import proofs.«181398_j60696477827106_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Decode

open Cert.Pre_finite_inputs Idealize.ShloMosaic

instance : Subsingleton S_.Idx := ⟨fun a b => funext fun d => d.elim0⟩

theorem ofBool_one {b : Bool} : BitVec.ofBool b = 1#1 ↔ b = true := by cases b <;> decide

theorem lt_of_cmp_olt {x y : EReal} (h : Ideal.cmp .olt x y = 1#1) : x < y := by
  unfold Ideal.cmp at h
  exact of_decide_eq_true (ofBool_one.mp h)

theorem le_of_cmp_oge {x y : EReal} (h : Ideal.cmp .oge x y = 1#1) : y ≤ x := by
  unfold Ideal.cmp at h
  exact of_decide_eq_true (ofBool_one.mp h)

/-- The f32 word `0x7F800000` is `+∞`. -/
theorem ofBits_inf : Ideal.ofBits .f32 0x7F800000#32 = ⊤ := by simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

variable [Cert.Pre_finite_inputs.Facts]

/-- One `jnp.all(|x| < inf)` conjunct, read at an index. -/
theorem real_of_all {s : Shape} (x : FVec Ideal s .f32) (hb : S_.BroadcastsInDim s (![] : Fin 0 → Fin s.rank)) {axes : List (Fin s.rank)}
    (hr : s.ReducesTo axes S_) (hu : 0 < S_.numel)
    (h : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) := by
  have h1 := Host.reduce_andi_all _ _ hr hu ValueIdx.ix0 h i
  have h2 : Ideal.cmp .olt (max (x i) (-(x i))) (Ideal.ofBits .f32 0x7F800000#32) = 1#1 := h1
  rw [ofBits_inf] at h2
  exact real_of_abs_lt_top _ (lt_of_cmp_olt h2)

theorem andi_apply {s : Shape} {w : Nat} (a b : IVec s w) (i : s.Idx) : andi a b i = IntOp.andi (a i) (b i) := rfl

/-- The four normalisation parameters at column `k`: reals, the variance non-negative. -/
theorem bn_params (x0 x1 : FVec Ideal S100000x128 .f32) (x2 : IVec S2x500000 32) (x3 : FVec Ideal S500000x16 .f32)
    (x4 x5 x6 x7 : FVec Ideal S272 .f32) (x8 : FVec Ideal S272x128 .f32) (x9 : FVec Ideal S128 .f32)
    (x10 : FVec Ideal S128x1 .f32) (x11 : FVec Ideal S1 .f32)
    (h : fn (F := Ideal) x0 x1 x2 x3 x4 x5 x6 x7 x8 x9 x10 x11 = fun _ => 1#1) (k : S272.Idx) :
    ∃ g b mu v : ℝ, x4 k = (g : EReal) ∧ x5 k = (b : EReal) ∧ x6 k = (mu : EReal) ∧ x7 k = (v : EReal) ∧ 0 ≤ v := by
  have h0 := congrFun h ValueIdx.ix0
  simp only [fn, fn_part1, fn_part2, fn_part3, andi_apply, IntOp.andi_eq_one] at h0
  obtain ⟨⟨⟨⟨⟨⟨⟨⟨⟨⟨⟨h_0, h_1⟩, h_3⟩, h_4⟩, h_5⟩, h_6⟩, h_7⟩, h_8⟩, h_9⟩, h_10⟩, h_11⟩, h_v⟩ := h0
  obtain ⟨g, hg⟩ := real_of_all x4 _ _ _ h_4 k
  obtain ⟨b, hb⟩ := real_of_all x5 _ _ _ h_5 k
  obtain ⟨mu, hmu⟩ := real_of_all x6 _ _ _ h_6 k
  obtain ⟨v, hv⟩ := real_of_all x7 _ _ _ h_7 k
  have hv1 := Host.reduce_andi_all _ _ _ _ ValueIdx.ix0 h_v k
  have hv2 : Ideal.cmp .oge (x7 k) (Ideal.ofBits .f32 0x00000000#32) = 1#1 := hv1
  rw [Ideal.ofBits_zero_f32, hv] at hv2
  exact ⟨g, b, mu, v, hg, hb, hmu, hv, by exact_mod_cast le_of_cmp_oge hv2⟩

end Cert.Pre_finite_inputs.Decode

end
-- ==== Proof.Bridge.lean ====
/-
  THE TWO PROGRAMS COMPUTE ONE FUNCTION.

  Both programs end by adding, into the row of each edge's receiving node, the edge's gated message; they differ in
  how a column of the joined feature row is normalised before the first dense layer — the kernel multiplies by the
  folded factor and adds the folded offset, `s · f + (β - mean · f)`, the reference computes `(s - mean) · f + β`, with
  `f = γ / √(var + ε)`. Under the precondition `γ`, `β`, `mean` are reals and `var` is a non-negative real, so `f` is a
  real and the two spellings are one extended real at every entry `s`. Everything after the normalisation is the same
  function of the same rows; the 1760 padded rows of the kernel's arrays are dropped before the scatter.
-/
import proofs.«181398_j60696477827106_2_alg».proof.Defs
import proofs.«181398_j60696477827106_2_alg».proof.Proof.KValue
import proofs.«181398_j60696477827106_2_alg».proof.Proof.RefSide
import proofs.«181398_j60696477827106_2_alg».proof.Proof.Finite

set_option maxRecDepth 16384

noncomputable section

namespace Cert.Proof.Bridge

open Idealize.ShloMosaic Idealize.ShloMosaic.TcCoe Idealize.SL.Sem Idealize.ShloMosaic.ValueIdx
open Cert.EdgeSpec Cert.JoinCols
open Cert.KernelIdeal Cert.KernelIdeal.Gen Cert.KernelIdeal.Blocks Cert.KernelIdeal.KArrays Cert.KernelIdeal.KValue

variable (m : (ℓ : Loc nD τ sig) → Buf (Elt Ideal) ℓ)

/-- The array the kernel scatters — its result array without the padded rows — is the array the reference scatters. -/
theorem updates_eq (c : Dev nD)
    (hpre : Cert.Pre_finite_inputs.fn (F := Ideal) (a0 m c) (a1 m c) (a2 m c) (a3 m c) (a4 m c) (a5 m c) (a6 m c) (a7 m c) (a8 m c)
      (a9 m c) (a10 m c) (a11 m c) = fun _ => 1#1) :
    extractStridedSlice S500000x128 ![0, 0] (result m c) Facts₀.slices_S501760x128_S500000x128_0_0
      = Cert.ReferenceIdeal.Read.val_main_v48 (F := Ideal) (a0 m c) (a1 m c) (a2 m c) (a3 m c) (a4 m c) (a5 m c) (a6 m c) (a7 m c)
          (a8 m c) (a9 m c) (a10 m c) (a11 m c) := by
  funext i
  obtain ⟨e, q, rfl⟩ : ∃ (e : Fin 500000) (q : Fin 128), i = ix2 e q := ⟨i 0, i 1, eq_ix2 i⟩
  rw [Cert.ReferenceIdeal.RefValue.updates_apply]
  rw [extractStridedSlice_apply ![0, 0] (result m c) Facts₀.slices_S501760x128_S500000x128_0_0 (ix2 e q)
    (ix2 (⟨e.val, by have := e.isLt; omega⟩ : Fin 501760) q) (fun a => match a with
      | ⟨0, _⟩ => by show e.val = 0 + e.val; omega
      | ⟨1, _⟩ => by show q.val = 0 + q.val; omega)]
  rw [result_at m c _ e q rfl rfl]
  refine rowOut_congr (fun k => ?_) (fun _ _ => rfl) (fun _ => rfl) (fun _ => rfl) rfl rfl
  obtain ⟨g, b, mu, v, hg, hb, hmu, hv, hv0⟩ := Cert.Pre_finite_inputs.Decode.bn_params _ _ _ _ _ _ _ _ _ _ _ _ hpre (ix1 k)
  obtain ⟨ep, hep0, hep⟩ := eps_pos
  obtain ⟨r, hr⟩ := rsqrt_real hv0 hep0
  have hfac : fac m c k = ((g * r : ℝ) : EReal) := by
    show a4 m c (ix1 k) * Ideal.rsqrt (a7 m c (ix1 k) + Ideal.ofBits .f32 0x3727C5AC#32) = _
    rw [hg, hv, hep, hr, EReal.coe_mul]
  show _ * fac m c k + (a5 m c (ix1 k) - a6 m c (ix1 k) * fac m c k) = (_ - a6 m c (ix1 k)) * fac m c k + a5 m c (ix1 k)
  rw [hfac, hb, hmu]
  exact bn_eq _ mu (g * r) b

/-- What the kernel returns is what the reference returns. -/
theorem final_eq (c : Dev nD)
    (hpre : Cert.Pre_finite_inputs.fn (F := Ideal) (a0 m c) (a1 m c) (a2 m c) (a3 m c) (a4 m c) (a5 m c) (a6 m c) (a7 m c) (a8 m c)
      (a9 m c) (a10 m c) (a11 m c) = fun _ => 1#1) :
    Cert.ReferenceIdeal.Read.val_main_v51 (F := Ideal) (a0 m c) (a1 m c) (a2 m c) (a3 m c) (a4 m c) (a5 m c) (a6 m c) (a7 m c)
        (a8 m c) (a9 m c) (a10 m c) (a11 m c) = final m c := by
  unfold Cert.ReferenceIdeal.Read.val_main_v51 final
  rw [updates_eq m c hpre]
  rfl

end Cert.Proof.Bridge

end
-- ==== Proof.lean ====
/-
  The certificate of the edge-message kernel against its reference: the three runs, and that the two idealized programs
  return the same array. The word-level and the idealized kernel run to the end with their arguments unchanged (the
  generated frames); the reference's run is its operations composed; the idealization rewrote nothing; and, at the
  exact instance, what the kernel returns (the region's result array without its padded rows, scattered) is what the
  reference returns, because the kernel's folded normalisation and the reference's unfolded one agree column by column
  once the normalisation parameters are real and the variance is non-negative.
-/
import proofs.«181398_j60696477827106_2_alg».proof.Defs
import proofs.«181398_j60696477827106_2_alg».proof.Proof.Gen.Kernel
import proofs.«181398_j60696477827106_2_alg».proof.Proof.Gen.Kernel.Skeleton
import proofs.«181398_j60696477827106_2_alg».proof.Proof.Gen.Kernel.Launch
import proofs.«181398_j60696477827106_2_alg».proof.Proof.Gen.Kernel.Points
import proofs.«181398_j60696477827106_2_alg».proof.Proof.Gen.Kernel.Frame
import proofs.«181398_j60696477827106_2_alg».proof.Proof.Gen.KernelIdeal
import proofs.«181398_j60696477827106_2_alg».proof.Proof.Gen.KernelIdeal.Skeleton
import proofs.«181398_j60696477827106_2_alg».proof.Proof.Gen.KernelIdeal.Launch
import proofs.«181398_j60696477827106_2_alg».proof.Proof.Gen.KernelIdeal.Points
import proofs.«181398_j60696477827106_2_alg».proof.Proof.Gen.KernelIdeal.Frame
import proofs.«181398_j60696477827106_2_alg».proof.Proof.Gen.ReferenceIdeal
import proofs.«181398_j60696477827106_2_alg».proof.Proof.Gen.ReferenceIdeal.Run
import proofs.«181398_j60696477827106_2_alg».proof.Proof.Gen.ReferenceIdeal.Read
import proofs.«181398_j60696477827106_2_alg».proof.Proof.Gen.Pre_finite_inputs
import proofs.«181398_j60696477827106_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, return `Cert.KernelIdeal.KValue.final`. -/
theorem algebraic : Cert.algebraic_KernelIdeal_ReferenceIdeal := by
  intro m ρ m' ρ' hpre hagree
  refine ⟨fun c => Cert.KernelIdeal.KValue.final m c, ?_, ?_⟩
  · exact (θ_run Cert.KernelIdeal.defs _ _).mono (fun r h c =>
      ⟨(((h c).2 Cert.KernelIdeal.main_v37 (Pipeline.mem_restRefs_of Cert.KernelIdeal.main_v37 (by decide) (by decide))).trans
          (Cert.KernelIdeal.KValue.tail_eq m c)),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      (((h c).2 Cert.KernelIdeal.main_arg1 (Pipeline.mem_restRefs_of Cert.KernelIdeal.main_arg1 (by decide) (by decide))).trans (Cert.KernelIdeal.Gen.W_main_arg1 m (Cert.KernelIdeal.Gen.dats m) c)),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c)),
      (((h c).2 Cert.KernelIdeal.main_arg7 (Pipeline.mem_restRefs_of Cert.KernelIdeal.main_arg7 (by decide) (by decide))).trans (Cert.KernelIdeal.Gen.W_main_arg7 m (Cert.KernelIdeal.Gen.dats m) c)),
      (((h c).2 Cert.KernelIdeal.main_arg8 (Pipeline.mem_restRefs_of Cert.KernelIdeal.main_arg8 (by decide) (by decide))).trans (Cert.KernelIdeal.Gen.W_main_arg8 m (Cert.KernelIdeal.Gen.dats m) c)),
      (((h c).2 Cert.KernelIdeal.main_arg9 (Pipeline.mem_restRefs_of Cert.KernelIdeal.main_arg9 (by decide) (by decide))).trans (Cert.KernelIdeal.Gen.W_main_arg9 m (Cert.KernelIdeal.Gen.dats m) c)),
      (((h c).2 Cert.KernelIdeal.main_arg10 (Pipeline.mem_restRefs_of Cert.KernelIdeal.main_arg10 (by decide) (by decide))).trans (Cert.KernelIdeal.Gen.W_main_arg10 m (Cert.KernelIdeal.Gen.dats m) c)),
      (((h c).2 Cert.KernelIdeal.main_arg11 (Pipeline.mem_restRefs_of Cert.KernelIdeal.main_arg11 (by decide) (by decide))).trans (Cert.KernelIdeal.Gen.W_main_arg11 m (Cert.KernelIdeal.Gen.dats m) c))⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact Cert.Proof.Bridge.final_eq m c (hpre c)

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
